-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg5 : FVec F S128x64 .f32) (main_arg6 : FVec F S64 .f32) (main_arg7 : FVec F S64x1 .f32) (main_arg8 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x1 .f32 := Host.absf main_arg7
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x800000 32) (main_arg2 : FVec F S800000 .f32) (main_arg3 : FVec F S128x128 .f32) (main_arg4 : FVec F S128 .f32) (main_arg5 : FVec F S128x64 .f32) (main_arg6 : FVec F S64 .f32) (main_arg7 : FVec F S64x1 .f32) (main_arg8 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S5000x128 : Shape := ⟨2, ![5000, 128]⟩
abbrev S800000x128 : Shape := ⟨2, ![800000, 128]⟩
abbrev S1x128 : Shape := ⟨2, ![1, 128]⟩
abbrev S5000x1 : Shape := ⟨2, ![5000, 1]⟩
abbrev S50000x64 : Shape := ⟨2, ![50000, 64]⟩
abbrev S5000x64 : Shape := ⟨2, ![5000, 64]⟩
abbrev S800000x64 : Shape := ⟨2, ![800000, 64]⟩
abbrev S1x64 : Shape := ⟨2, ![1, 64]⟩
abbrev S1x1 : Shape := ⟨2, ![1, 1]⟩

abbrev nBuf : Space → Nat
  | .hbm => 88
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000, .f32⟩
  | .hbm, ⟨30, _⟩ => ⟨S800000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000, .f32⟩
  | .hbm, ⟨40, _⟩ => ⟨S800000, .f32⟩
  | .hbm, ⟨41, _⟩ => ⟨S_, .f32⟩
  | .hbm, ⟨42, _⟩ => ⟨S50000, .f32⟩
  | .hbm, ⟨43, _⟩ => ⟨S50000, .f32⟩
  | .hbm, ⟨44, _⟩ => ⟨S50000, .f32⟩
  | .hbm, ⟨45, _⟩ => ⟨S50000x1, .f32⟩
  | .hbm, ⟨46, _⟩ => ⟨S50000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S800000x1, .f32⟩
  | .hbm, ⟨57, _⟩ => ⟨S800000x128, .f32⟩
  | .hbm, ⟨58, _⟩ => ⟨S800000x128, .f32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x64, .f32⟩
  | .hbm, ⟨66, _⟩ => ⟨S_, .i32⟩
  | .hbm, ⟨67, _⟩ => ⟨S800000, .i32⟩
  | .hbm, ⟨68, _⟩ => ⟨S800000, .i1⟩
  | .hbm, ⟨69, _⟩ => ⟨S_, .i32⟩
  | .hbm, ⟨70, _⟩ => ⟨S800000, .i32⟩
  | .hbm, ⟨71, _⟩ => ⟨S800000, .i32⟩
  | .hbm, ⟨72, _⟩ => ⟨S800000, .i32⟩
  | .hbm, ⟨73, _⟩ => ⟨S800000x1, .i32⟩
  | .hbm, ⟨74, _⟩ => ⟨S800000x64, .f32⟩
  | .hbm, ⟨75, _⟩ => ⟨S800000x1, .f32⟩
  | .hbm, ⟨76, _⟩ => ⟨S800000x64, .f32⟩
  | .hbm, ⟨77, _⟩ => ⟨S800000x64, .f32⟩
  | .hbm, ⟨78, _⟩ => ⟨S_, .f32⟩
  | .hbm, ⟨79, _⟩ => ⟨S50000x64, .f32⟩
  | .hbm, ⟨80, _⟩ => ⟨S800000x1, .i32⟩
  | .hbm, ⟨81, _⟩ => ⟨S50000x64, .f32⟩
  | .hbm, ⟨82, _⟩ => ⟨S1x64, .f32⟩
  | .hbm, ⟨83, _⟩ => ⟨S50000x64, .f32⟩
  | .hbm, ⟨84, _⟩ => ⟨S50000x1, .f32⟩
  | .hbm, ⟨85, _⟩ => ⟨S1x1, .f32⟩
  | .hbm, ⟨86, _⟩ => ⟨S50000x1, .f32⟩
  | .hbm, ⟨87, _⟩ => ⟨S50000x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_8 : Ref sig .tc := ⟨.hbm, 66, rfl⟩
abbrev main_v47 : Ref sig .tc := ⟨.hbm, 67, rfl⟩
abbrev main_v48 : Ref sig .tc := ⟨.hbm, 68, rfl⟩
abbrev main_c_9 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_10 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x1_S50000x1_1_0_0_1_n_n_wf : DotDims.WF S50000x64 S64x1 S50000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S50000x64.size a
  hwx3_4 : ∀ i : grid3.Coords, EltTy.bits .f32 = 32 ∨ (Rect.block (s := S50000x64) S5000x64.size (cc3_transform_4 i) (hinb3_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v46) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v29) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v60) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v61) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩
abbrev S1x1 : Shape := ⟨2, ![1, 1]⟩

abbrev nBuf : Space → Nat
  | .hbm => 135
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S128x128, .f32⟩
  | 4 => ⟨S128, .f32⟩
  | 5 => ⟨S128x64, .f32⟩
  | 6 => ⟨S64, .f32⟩
  | 7 => ⟨S64x1, .f32⟩
  | 8 => ⟨S1, .f32⟩
  | 9 => ⟨S1x800000, .i32⟩
  | 10 => ⟨S800000, .i32⟩
  | 11 => ⟨S1x800000, .i32⟩
  | 12 => ⟨S800000, .i32⟩
  | 13 => ⟨S_, .f32⟩
  | 14 => ⟨S50000, .f32⟩
  | 15 => ⟨S800000x1, .i32⟩
  | 16 => ⟨S50000, .f32⟩
  | 17 => ⟨S_, .f32⟩
  | 18 => ⟨S50000, .f32⟩
  | 19 => ⟨S50000, .f32⟩
  | 20 => ⟨S50000, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000, .f32⟩
  | 30 => ⟨S800000, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000, .f32⟩
  | 40 => ⟨S800000, .f32⟩
  | 41 => ⟨S50000x128, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x128, .f32⟩
  | 51 => ⟨S800000x1, .f32⟩
  | 52 => ⟨S800000x128, .f32⟩
  | 53 => ⟨S800000x128, .f32⟩
  | 54 => ⟨S_, .f32⟩
  | 55 => ⟨S50000x128, .f32⟩
  | 56 => ⟨S800000x1, .i32⟩
  | 57 => ⟨S50000x128, .f32⟩
  | 58 => ⟨S_, .f32⟩
  | 59 => ⟨S50000, .f32⟩
  | 60 => ⟨S50000, .f32⟩
  | 61 => ⟨S50000, .f32⟩
  | 62 => ⟨S50000x1, .f32⟩
  | 63 => ⟨S50000x128, .f32⟩
  | 64 => ⟨S50000x128, .f32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S_, .f32⟩
  | 73 => ⟨S50000, .f32⟩
  | 74 => ⟨S800000x1, .i32⟩
  | 75 => ⟨S50000, .f32⟩
  | 76 => ⟨S_, .f32⟩
  | 77 => ⟨S50000, .f32⟩
  | 78 => ⟨S50000, .f32⟩
  | 79 => ⟨S50000, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000, .f32⟩
  | 89 => ⟨S800000, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000, .f32⟩
  | 99 => ⟨S800000, .f32⟩
  | 100 => ⟨S50000x64, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000x64, .f32⟩
  | 110 => ⟨S800000x1, .f32⟩
  | 111 => ⟨S800000x64, .f32⟩
  | 112 => ⟨S800000x64, .f32⟩
  | 113 => ⟨S_, .f32⟩
  | 114 => ⟨S50000x64, .f32⟩
  | 115 => ⟨S800000x1, .i32⟩
  | 116 => ⟨S50000x64, .f32⟩
  | 117 => ⟨S_, .f32⟩
  | 118 => ⟨S50000, .f32⟩
  | 119 => ⟨S50000, .f32⟩
  | 120 => ⟨S50000, .f32⟩
  | 121 => ⟨S50000x1, .f32⟩
  | 122 => ⟨S50000x64, .f32⟩
  | 123 => ⟨S50000x64, .f32⟩
  | 124 => ⟨S50000x64, .f32⟩
  | 125 => ⟨S1x64, .f32⟩
  | 126 => ⟨S50000x64, .f32⟩
  | 127 => ⟨S50000x64, .f32⟩
  | _ => ⟨S50000x128, .f32⟩

abbrev hbmTy0_1 (i : Nat) : BufTy := match i % 128 with
  | 0 => ⟨S_, .f32⟩
  | 1 => ⟨S50000x64, .f32⟩
  | 2 => ⟨S50000x64, .f32⟩
  | 3 => ⟨S50000x1, .f32⟩
  | 4 => ⟨S1x1, .f32⟩
  | 5 => ⟨S50000x1, .f32⟩
  | 6 => ⟨S50000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_4 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_call0_cst : Ref sig .tc := ⟨.hbm, 69, rfl⟩
abbrev main_call0_v0 : Ref sig .tc := ⟨.hbm, 70, rfl⟩
abbrev main_v50 : Ref sig .tc := ⟨.hbm, 71, rfl⟩
abbrev main_cst_8 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_10 : Ref sig .tc := ⟨.hbm, 80, rfl⟩
abbrev main_v57 : Ref sig .tc := ⟨.hbm, 81, rfl⟩
abbrev main_v58 : Ref sig .tc := ⟨.hbm, 82, rfl⟩
abbrev main_c_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_12 : Ref sig .tc := ⟨.hbm, 90, rfl⟩
abbrev main_v65 : Ref sig .tc := ⟨.hbm, 91, rfl⟩
abbrev main_v66 : Ref sig .tc := ⟨.hbm, 92, rfl⟩
abbrev main_c_13 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_14 : Ref sig .tc := ⟨.hbm, 101, rfl⟩
abbrev main_v74 : Ref sig .tc := ⟨.hbm, 102, rfl⟩
abbrev main_v75 : Ref sig .tc := ⟨.hbm, 103, rfl⟩
abbrev main_c_15 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_16 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_17 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_call1_cst : Ref sig .tc := ⟨.hbm, 128, rfl⟩
abbrev main_call1_v0 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x1_S50000x1_1_0_0_1_n_n_wf : DotDims.WF S50000x64 S64x1 S50000x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.KernelRun.lean ====
/-
  The idealized kernel's run with its result named.  Its @main is eight segments — four stretches of host operations
  and four tiled regions — and the contents of every buffer at each boundary are a fold through them from the launch
  memory.  Every weakly fair execution ends with every buffer at the last boundary's contents; read at the result
  buffer and at the nine arguments this is the run below: the result holds the last fold's value there, and the
  arguments are as launched.
-/
import proofs.«120330_j55602646614062_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the arguments as launched. -/
theorem run_value : θ_run defs (onTc (τ := τ) (main (F := F))) ⟨m, fun _ => 0, ρ⟩ (fun r => ∀ c : Dev nD,
      r.2.mem ((c.tc : Thread nD τ).loc main_v65) = W8 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v65 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c)⟩)

end Cert.KernelIdeal.Whole

end
-- ==== Proof.GcnTerms.lean ====
/-
  The two-layer graph convolution as one function of its nine arguments, in named pieces, at the ideal instance.

  With `src`, `dst` the two rows of the edge list and `ew` the edge weights: the degree of a node is 2 plus the sum
  of the weights of the edges into it, `dinv` its inverse square root, `norm e = dinv[src e] * ew e * dinv[dst e]`
  the normalised weight of edge `e`, and `selfw = 2 * dinv * dinv` the weight of a node's self-loop.  A layer
  projects its input by a matrix, adds into every node the weighted projected rows of its in-neighbours (`agg`),
  adds the self-loop term and the bias and takes the maximum with zero (`layer`).  Two layers (widths 128 and 64)
  are followed by a projection to one column plus a bias (`head`).  Indices into the 50000 nodes that are negative
  count from the end (`wrap`), as the array indexing of the source programs has it.
-/
import proofs.«120330_j55602646614062_1_alg».proof.Proof.Gen.ReferenceIdeal
import Idealize.ShloMosaic.PureOps.Ideal

noncomputable section

namespace Cert.Gcn

open Cert.ReferenceIdeal Cert.ReferenceIdeal.Gen Idealize.ShloMosaic

/-- The edges' source nodes: row 0 of the edge list. -/
def src (ei : (⟨S2x800000, .i32⟩ : BufTy).Contents (Elt Ideal)) : (⟨S800000, .i32⟩ : BufTy).Contents (Elt Ideal) :=
  shapeCast _ (extractStridedSlice S1x800000 ![0, 0] ei slices_S2x800000_S1x800000_0_0) shapeCasts_S1x800000_S800000

/-- The edges' destination nodes: row 1 of the edge list. -/
def dst (ei : (⟨S2x800000, .i32⟩ : BufTy).Contents (Elt Ideal)) : (⟨S800000, .i32⟩ : BufTy).Contents (Elt Ideal) :=
  shapeCast _ (extractStridedSlice S1x800000 ![1, 0] ei slices_S2x800000_S1x800000_1_0) shapeCasts_S1x800000_S800000

/-- Node indices as a column of gather indices, a negative index counted from the end of the 50000 nodes. -/
def wrap (ix : (⟨S800000, .i32⟩ : BufTy).Contents (Elt Ideal)) : (⟨S800000x1, .i32⟩ : BufTy).Contents (Elt Ideal) :=
  broadcastInDim S800000x1 ![0] bcast_S800000_S800000x1_0 (select (cmpi .slt ix (broadcastInDim S800000 ![] bcast_S_S800000 (constantI S_ 32 0#32))) (addi ix (broadcastInDim S800000 ![] bcast_S_S800000 (constantI S_ 32 50000#32))) ix)

/-- The inverse square root of each node's degree: 2 plus the sum of the weights of the edges into it. -/
def dinv (ei : (⟨S2x800000, .i32⟩ : BufTy).Contents (Elt Ideal)) (ew : FVec Ideal S800000 .f32) : FVec Ideal S50000 .f32 :=
  Host.rsqrt (addf (Host.scatterAdd scatter_S50000_S800000x1_S800000_n_0_0_1 (broadcastInDim S50000 ![] bcast_S_S50000 (constant S_ .f32 0x00000000#32)) (broadcastInDim S800000x1 ![0] bcast_S800000_S800000x1_0 (dst ei)) ew) (broadcastInDim S50000 ![] bcast_S_S50000 (constant S_ .f32 0x40000000#32)))

/-- The normalised weight of each edge: `dinv[src] * ew * dinv[dst]`. -/
def norm (ei : (⟨S2x800000, .i32⟩ : BufTy).Contents (Elt Ideal)) (ew : FVec Ideal S800000 .f32) : FVec Ideal S800000 .f32 :=
  mulf (mulf (Host.gather gather_S50000_S800000x1_S800000_n_0_n_n_0_1_1 (dinv ei ew) (wrap (src ei))) ew) (Host.gather gather_S50000_S800000x1_S800000_n_0_n_n_0_1_1 (dinv ei ew) (wrap (dst ei)))

/-- The weight of each node's self-loop: `2 * dinv * dinv`. -/
def selfw (ei : (⟨S2x800000, .i32⟩ : BufTy).Contents (Elt Ideal)) (ew : FVec Ideal S800000 .f32) : FVec Ideal S50000 .f32 :=
  mulf (mulf (broadcastInDim S50000 ![] bcast_S_S50000 (constant S_ .f32 0x40000000#32)) (dinv ei ew)) (dinv ei ew)

/-- One layer's aggregation over the edges of a projected array `xw` of width 128: gather the source rows, weight each by
    its edge's normalised weight, and add them into the destination rows of a zero array. -/
def agg128 (xw : FVec Ideal S50000x128 .f32) (ei : (⟨S2x800000, .i32⟩ : BufTy).Contents (Elt Ideal)) (ew : FVec Ideal S800000 .f32) : FVec Ideal S50000x128 .f32 :=
  Host.scatterAdd scatter_S50000x128_S800000x1_S800000x128_1_0_0_1 (broadcastInDim S50000x128 ![] bcast_S_S50000x128 (constant S_ .f32 0x00000000#32)) (broadcastInDim S800000x1 ![0] bcast_S800000_S800000x1_0 (dst ei)) (mulf (Host.gather gather_S50000x128_S800000x1_S800000x128_1_0_n_n_0_1_1128 xw (wrap (src ei))) (broadcastInDim S800000x128 ![0, 1] bcast_S800000x1_S800000x128_0_1 (broadcastInDim S800000x1 ![0] bcast_S800000_S800000x1_0 (norm ei ew))))

/-- One layer's aggregation over the edges of a projected array `xw` of width 64: gather the source rows, weight each by
    its edge's normalised weight, and add them into the destination rows of a zero array. -/
def agg64 (xw : FVec Ideal S50000x64 .f32) (ei : (⟨S2x800000, .i32⟩ : BufTy).Contents (Elt Ideal)) (ew : FVec Ideal S800000 .f32) : FVec Ideal S50000x64 .f32 :=
  Host.scatterAdd scatter_S50000x64_S800000x1_S800000x64_1_0_0_1 (broadcastInDim S50000x64 ![] bcast_S_S50000x64 (constant S_ .f32 0x00000000#32)) (broadcastInDim S800000x1 ![0] bcast_S800000_S800000x1_0 (dst ei)) (mulf (Host.gather gather_S50000x64_S800000x1_S800000x64_1_0_n_n_0_1_164 xw (wrap (src ei))) (broadcastInDim S800000x64 ![0, 1] bcast_S800000x1_S800000x64_0_1 (broadcastInDim S800000x1 ![0] bcast_S800000_S800000x1_0 (norm ei ew))))

/-- One layer's self-loop, bias and rectifier at width 128: `max ((agg + xw * w[:, None]) + b[None, :]) 0`. -/
def layer128 (agg xw : FVec Ideal S50000x128 .f32) (w : FVec Ideal S50000 .f32) (b : FVec Ideal S128 .f32) : FVec Ideal S50000x128 .f32 :=
  maximumf (addf (addf agg (mulf xw (broadcastInDim S50000x128 ![0, 1] bcast_S50000x1_S50000x128_0_1 (broadcastInDim S50000x1 ![0] bcast_S50000_S50000x1_0 w)))) (broadcastInDim S50000x128 ![0, 1] bcast_S1x128_S50000x128_0_1 (broadcastInDim S1x128 ![1] bcast_S128_S1x128_1 b))) (broadcastInDim S50000x128 ![] bcast_S_S50000x128 (constant S_ .f32 0x00000000#32))

/-- One layer's self-loop, bias and rectifier at width 64: `max ((agg + xw * w[:, None]) + b[None, :]) 0`. -/
def layer64 (agg xw : FVec Ideal S50000x64 .f32) (w : FVec Ideal S50000 .f32) (b : FVec Ideal S64 .f32) : FVec Ideal S50000x64 .f32 :=
  maximumf (addf (addf agg (mulf xw (broadcastInDim S50000x64 ![0, 1] bcast_S50000x1_S50000x64_0_1 (broadcastInDim S50000x1 ![0] bcast_S50000_S50000x1_0 w)))) (broadcastInDim S50000x64 ![0, 1] bcast_S1x64_S50000x64_0_1 (broadcastInDim S1x64 ![1] bcast_S64_S1x64_1 b))) (broadcastInDim S50000x64 ![] bcast_S_S50000x64 (constant S_ .f32 0x00000000#32))

/-- The first projection, `x · W1`. -/
def proj128 (x : FVec Ideal S50000x128 .f32) (w : FVec Ideal S128x128 .f32) : FVec Ideal S50000x128 .f32 :=
  Host.dotGeneral dot_S50000x128_S128x128_S50000x128_1_0_0_1_n_n none x w

/-- The second projection, `h1 · W2`. -/
def proj64 (h : FVec Ideal S50000x128 .f32) (w : FVec Ideal S128x64 .f32) : FVec Ideal S50000x64 .f32 :=
  Host.dotGeneral dot_S50000x128_S128x64_S50000x64_1_0_0_1_n_n none h w

/-- The output head: `h2 · Wfc + bfc`. -/
def head (h : FVec Ideal S50000x64 .f32) (w : FVec Ideal S64x1 .f32) (b : FVec Ideal S1 .f32) : FVec Ideal S50000x1 .f32 :=
  addf (Host.dotGeneral dot_S50000x64_S64x1_S50000x1_1_0_0_1_n_n none h w) (broadcastInDim S50000x1 ![0, 1] bcast_S1x1_S50000x1_0_1 (broadcastInDim S1x1 ![1] bcast_S1_S1x1_1 b))

/-- The first layer's output. -/
def hidden1 (x : FVec Ideal S50000x128 .f32) (ei : (⟨S2x800000, .i32⟩ : BufTy).Contents (Elt Ideal)) (ew : FVec Ideal S800000 .f32)
    (w1 : FVec Ideal S128x128 .f32) (b1 : FVec Ideal S128 .f32) : FVec Ideal S50000x128 .f32 :=
  layer128 (agg128 (proj128 x w1) ei ew) (proj128 x w1) (selfw ei ew) b1

/-- The second layer's output. -/
def hidden2 (x : FVec Ideal S50000x128 .f32) (ei : (⟨S2x800000, .i32⟩ : BufTy).Contents (Elt Ideal)) (ew : FVec Ideal S800000 .f32)
    (w1 : FVec Ideal S128x128 .f32) (b1 : FVec Ideal S128 .f32) (w2 : FVec Ideal S128x64 .f32) (b2 : FVec Ideal S64 .f32) :
    FVec Ideal S50000x64 .f32 :=
  layer64 (agg64 (proj64 (hidden1 x ei ew w1 b1) w2) ei ew) (proj64 (hidden1 x ei ew w1 b1) w2) (selfw ei ew) b2

/-- The whole network's output. -/
def network (x : FVec Ideal S50000x128 .f32) (ei : (⟨S2x800000, .i32⟩ : BufTy).Contents (Elt Ideal)) (ew : FVec Ideal S800000 .f32)
    (w1 : FVec Ideal S128x128 .f32) (b1 : FVec Ideal S128 .f32) (w2 : FVec Ideal S128x64 .f32) (b2 : FVec Ideal S64 .f32)
    (wfc : FVec Ideal S64x1 .f32) (bfc : FVec Ideal S1 .f32) : FVec Ideal S50000x1 .f32 :=
  head (hidden2 x ei ew w1 b1 w2 b2) wfc bfc

end Cert.Gcn

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.ProjectionOne.lean ====
/-
  The first projection x · W1, computed ten row tiles of 5000 rows at a time: after the region its result array holds,
  at (r, q), the sum over k of x (r, k) * W1 (k, q) of the arrays the region was entered with.
-/
import proofs.«120330_j55602646614062_1_alg».proof.Proof.Gen.KernelIdeal.Frame
import Idealize.ShloMosaic.Lib.Pipeline.Value
import Idealize.ShloMosaic.Lib.ValueIdx
import proofs.«120330_j55602646614062_1_alg».proof.Proof.LibMatmul2

set_option maxRecDepth 16384

noncomputable section

namespace Cert.KernelIdeal.ProjectionOne

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The product of a `[50000, 128]` array with a `[128, 128]` matrix, entry by entry: row `i 0` of the left against
    column `i 1` of the right. -/
def rowsTimes (X : FVec Ideal S50000x128 .f32) (M : FVec Ideal S128x128 .f32) : FVec Ideal S50000x128 .f32 :=
  fun i => ∑ k : Fin 128, X (ix2 (i 0) k) * M (ix2 k (i 1))

/-- One tile's product: the entry at `j` of a 5000-row block times the whole matrix is the sum over the contraction
    axis (the narrowing of both operands to bf16 changes nothing on the extended reals, and the accumulator starts
    at zero). -/
theorem tile_apply (x0 : Vec Ideal S5000x128 .f32) (x1 : Vec Ideal S128x128 .f32) (j : S5000x128.Idx) :
    k0_pay1 x0 x1 j = ∑ k : Fin 128, x0 (ix2 (j 0) k) * x1 (ix2 k (j 1)) := by
  obtain ⟨p, q, rfl⟩ : ∃ (p : Fin 5000) (q : Fin 128), j = ix2 p q := ⟨j 0, j 1, eq_ix2 j⟩
  unfold k0_pay1
  exact Cert.Lib.matmul2_zero_apply dot_S5000x128_S128x128_S5000x128_1_0_0_1_n_n.wf _ _ p q

/-- One term of the sum read at equal indices. -/
theorem term_congr (X : FVec Ideal S50000x128 .f32) (M : FVec Ideal S128x128 .f32) {i i' : S50000x128.Idx} {l l' : S128x128.Idx}
    (h0 : i = i') (h1 : l = l') : X i * M l = X i' * M l' := by rw [h0, h1]

/-- The printed block maps over the ten grid points: the row blocks of the left operand and of the result move
    together, one block per point; the matrix is one block; no map leaves column block zero. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every row block of the result is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- What point `t` writes back is block `t` of the whole product of the arrays as the region finds them. -/
theorem flushed_eq (c : Dev nD) (t : Fin cfg0.N) :
    (dat0 V c).flushed 2 t
      = ((cfg0.win 2).blk t).view.read (Elt Ideal) (rowsTimes (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, -⟩ := idx_facts t
  funext j
  show k0_pay1 (iblk0 V c 0 t) (iblk0 V c 1 t) j = rowsTimes (V c main_arg0) (V c main_arg3) (((cfg0.win 2).blk t).view.emb j)
  refine (tile_apply _ _ j).trans ?_
  unfold rowsTimes
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  exact term_congr (V c main_arg0) (V c main_arg3) h0 h1

/-- An index of the result array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- The ten row blocks fill the result array: row `r` is in block `r / 5000`. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The result array after the region: the whole product of the two operand arrays as the region finds them. -/
theorem final (c : Dev nD) : (dat0 V c).arrAt 2 cfg0.N = rowsTimes (V c main_arg0) (V c main_arg3) :=
  (dat0 V c).arrAt_eq_of_cover 2 (rowsTimes (V c main_arg0) (V c main_arg3)) (fun t _ => flushed_eq V c t) cover

end Cert.KernelIdeal.ProjectionOne

end
-- ==== Proof.LibHostRowCol.lean ====
/-
  A host program's two ways of spreading a vector over a matrix, read at an entry.

  jnp's `v[None, :]` against a matrix prints as two `broadcast_in_dim`s: the vector `[n]` becomes the row `[1, n]` and
  the row is repeated to `[a, n]`; `v[:, None]` likewise makes the column `[a, 1]` and repeats it to `[a, n]`. Read at
  `(r, q)` the first is the vector at `q` and the second the vector at `r`. Generic in the extents and the element type.
-/
import Idealize.ShloMosaic.Lib.Pipeline.Value
import Idealize.ShloMosaic.Lib.ValueIdx

namespace Cert.Lib

open Idealize.ShloMosaic Idealize.ShloMosaic.ValueIdx

variable {α : Type}

/-- A vector made a row and repeated down the rows reads, at `(r, q)`, the vector at `q`. -/
theorem bcast_row_rows_apply {a n : ℕ} (v : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![a, n]⟩ (![0, 1] : Fin 2 → Fin 2)) (r : Fin a) (q : Fin n) :
    broadcastInDim ⟨2, ![a, n]⟩ ![0, 1] h2 (broadcastInDim ⟨2, ![1, n]⟩ ![1] h1 v) (ix2 r q) = v (ix1 q) := by
  refine (broadcastInDim_apply _ h2 _ (ix2 r q) (ix2 (0 : Fin 1) q) fun ax => ?_).trans
    (broadcastInDim_apply _ h1 v (ix2 (0 : Fin 1) q) (ix1 q) fun ax => ?_)
  · match ax with
    | ⟨0, _⟩ => rfl
    | ⟨1, _⟩ =>
      show q.val = if n = 1 then 0 else q.val
      split
      · have := q.isLt; omega
      · rfl
  · match ax with
    | ⟨0, _⟩ =>
      show q.val = if n = 1 then 0 else q.val
      split
      · have := q.isLt; omega
      · rfl

/-- A vector made a column and repeated along the rows reads, at `(r, q)`, the vector at `r`. -/
theorem bcast_col_cols_apply {a n : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, n]⟩ (![0, 1] : Fin 2 → Fin 2)) (r : Fin a) (q : Fin n) :
    broadcastInDim ⟨2, ![a, n]⟩ ![0, 1] h2 (broadcastInDim ⟨2, ![a, 1]⟩ ![0] h1 v) (ix2 r q) = v (ix1 r) := by
  refine (broadcastInDim_apply _ h2 _ (ix2 r q) (ix2 r (0 : Fin 1)) fun ax => ?_).trans
    (broadcastInDim_apply _ h1 v (ix2 r (0 : Fin 1)) (ix1 r) fun ax => ?_)
  · match ax with
    | ⟨0, _⟩ =>
      show r.val = if a = 1 then 0 else r.val
      split
      · have := r.isLt; omega
      · rfl
    | ⟨1, _⟩ => rfl
  · match ax with
    | ⟨0, _⟩ =>
      show r.val = if a = 1 then 0 else r.val
      split
      · have := r.isLt; omega
      · rfl

end Cert.Lib
-- ==== Proof.LibHostBiasRelu.lean ====
/-
  A bias row added on the host, then a rectified linear unit, read at an entry.

  The host adds a bias vector of length B to every row of an [A, B] array by making the vector a [1, B] row and
  repeating it down the A rows, then takes the maximum with the all-zero array (the scalar zero repeated to [A, B]).
  At the ideal values entry (p, q) of the result is max (u (p, q) + bias q, 0): the repeated row reads the bias at the
  entry's column, and the repeated scalar reads zero everywhere.
-/
import proofs.«120330_j55602646614062_1_alg».proof.Proof.LibHostRowCol
import Idealize.ShloMosaic.Lib.Pipeline.Value
import Idealize.ShloMosaic.Lib.ValueIdx

noncomputable section

namespace Cert.Lib

open Idealize.ShloMosaic Idealize.ShloMosaic.ValueIdx

/-- A scalar repeated to any shape reads, at every index, the scalar. -/
theorem bcast_scalar_apply {α : Type} {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply ![] h x j ix0 fun a => a.elim0

/-- The host's bias-add and rectified linear unit at entry (p, q) is `max (u (p, q) + bias q) 0`. -/
theorem hostBiasRelu_apply {A B : ℕ} (u : FVec Ideal ⟨2, ![A, B]⟩ .f32) (bias : FVec Ideal ⟨1, ![B]⟩ .f32)
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2))
    (h0 : (⟨0, ![]⟩ : Shape).BroadcastsInDim ⟨2, ![A, B]⟩ (![] : Fin 0 → Fin 2)) (p : Fin A) (q : Fin B) :
    maximumf (addf u (broadcastInDim ⟨2, ![A, B]⟩ ![0, 1] h2 (broadcastInDim ⟨2, ![1, B]⟩ ![1] h1 bias)))
        (broadcastInDim ⟨2, ![A, B]⟩ ![] h0 (constant (F := Ideal) ⟨0, ![]⟩ .f32 0x00000000#32)) (ix2 p q)
      = max (u (ix2 p q) + bias (ix1 q)) (Ideal.ofBits .f32 0x00000000#32) := by
  rw [maximumf_apply, addf_apply, bcast_row_rows_apply bias h1 h2 p q, bcast_scalar_apply _ h0 (ix2 p q), constant_apply]

end Cert.Lib

end
-- ==== Proof.LibGcnTile.lean ====
/-
  The self-loop, bias and rectifier stage of a graph-convolution layer, read at an entry (p, q) in its two spellings.

  * In a row tile: the aggregated block plus the projected block times a column of per-row weights, the column a
    `[A, 1]` block broadcast across the lanes; plus a `[1, B]` bias row broadcast down the rows; then the maximum
    with the zero splat.
  * In a host program: the same sum with the weights a vector `[A]` made a column `[A, 1]` and repeated to
    `[A, B]`, the bias a vector `[B]` made a row `[1, B]` and repeated to `[A, B]`, and the zero a scalar
    constant repeated to `[A, B]`.

  Both read, at (p, q), `max ((agg (p, q) + xw (p, q) * w p) + bias q) 0` on the extended reals.  Generic in the two
  extents.
-/
import Idealize.ShloMosaic.Lib.ValueLayout
import Idealize.ShloMosaic.Lib.Pipeline.Value
import Idealize.ShloMosaic.Lib.ValueIdx
import proofs.«120330_j55602646614062_1_alg».proof.Proof.LibHostRowCol
import proofs.«120330_j55602646614062_1_alg».proof.Proof.LibHostBiasRelu

noncomputable section

namespace Cert.Lib

open Idealize.ShloMosaic Idealize.ShloMosaic.ValueIdx

/-- An `[a, 1]` column broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The stage in a row tile, at entry (p, q). -/
theorem tileSelfBiasRelu_apply {A B : ℕ} (x0 x1 : FVec Ideal ⟨2, ![A, B]⟩ .f32) (x2 : FVec Ideal ⟨2, ![A, 1]⟩ .f32)
    (x3 : FVec Ideal ⟨2, ![1, B]⟩ .f32)
    (h0 : (⟨2, ![A, B]⟩ : Shape).ShapeCasts ⟨2, ![A, B]⟩) (h2 : (⟨2, ![A, 1]⟩ : Shape).ShapeCasts ⟨2, ![A, 1]⟩)
    (hb2 : (⟨2, ![A, 1]⟩ : Shape).Broadcasts ⟨2, ![A, B]⟩) (h3 : (⟨2, ![1, B]⟩ : Shape).ShapeCasts ⟨2, ![1, B]⟩)
    (hb3 : (⟨2, ![1, B]⟩ : Shape).Broadcasts ⟨2, ![A, B]⟩) (p : Fin A) (q : Fin B) :
    maximumf (addf (addf (shapeCast ⟨2, ![A, B]⟩ x0 h0)
          (mulf (shapeCast ⟨2, ![A, B]⟩ x1 h0) (broadcastTo ⟨2, ![A, B]⟩ (shapeCast ⟨2, ![A, 1]⟩ x2 h2) hb2)))
        (broadcastTo ⟨2, ![A, B]⟩ (shapeCast ⟨2, ![1, B]⟩ x3 h3) hb3))
      (broadcast ⟨2, ![A, B]⟩ (Scalar.ofBits (F := Ideal) .f32 0x00000000#32)) (ix2 p q)
      = max ((x0 (ix2 p q) + x1 (ix2 p q) * x2 (ix2 p (0 : Fin 1))) + x3 (ix2 (0 : Fin 1) q))
          (Ideal.ofBits .f32 0x00000000#32) := by
  rw [maximumf_apply, addf_apply, addf_apply, mulf_apply, shapeCast_self, shapeCast_self, shapeCast_self,
    shapeCast_self, broadcastTo_a1_ab_apply, broadcastTo_1b_ab_apply, broadcast_apply]
  rfl

/-- The stage in a host program, at entry (p, q). -/
theorem hostSelfBiasRelu_apply {A B : ℕ} (agg xw : FVec Ideal ⟨2, ![A, B]⟩ .f32) (w : FVec Ideal ⟨1, ![A]⟩ .f32)
    (bias : FVec Ideal ⟨1, ![B]⟩ .f32)
    (hc1 : (⟨1, ![A]⟩ : Shape).BroadcastsInDim ⟨2, ![A, 1]⟩ (![0] : Fin 1 → Fin 2))
    (hc2 : (⟨2, ![A, 1]⟩ : Shape).BroadcastsInDim ⟨2, ![A, B]⟩ (![0, 1] : Fin 2 → Fin 2))
    (hr1 : (⟨1, ![B]⟩ : Shape).BroadcastsInDim ⟨2, ![1, B]⟩ (![1] : Fin 1 → Fin 2))
    (hr2 : (⟨2, ![1, B]⟩ : Shape).BroadcastsInDim ⟨2, ![A, B]⟩ (![0, 1] : Fin 2 → Fin 2))
    (hz : (⟨0, ![]⟩ : Shape).BroadcastsInDim ⟨2, ![A, B]⟩ (![] : Fin 0 → Fin 2)) (p : Fin A) (q : Fin B) :
    maximumf (addf (addf agg (mulf xw (broadcastInDim ⟨2, ![A, B]⟩ ![0, 1] hc2 (broadcastInDim ⟨2, ![A, 1]⟩ ![0] hc1 w))))
          (broadcastInDim ⟨2, ![A, B]⟩ ![0, 1] hr2 (broadcastInDim ⟨2, ![1, B]⟩ ![1] hr1 bias)))
        (broadcastInDim ⟨2, ![A, B]⟩ ![] hz (constant (F := Ideal) ⟨0, ![]⟩ .f32 0x00000000#32)) (ix2 p q)
      = max ((agg (ix2 p q) + xw (ix2 p q) * w (ix1 p)) + bias (ix1 q)) (Ideal.ofBits .f32 0x00000000#32) := by
  rw [hostBiasRelu_apply _ bias hr1 hr2 hz p q, addf_apply, mulf_apply, bcast_col_cols_apply w hc1 hc2 p q]

end Cert.Lib

end
-- ==== Proof.LayerOne.lean ====
/-
  The first layer's self-loop, bias and rectifier, computed ten row tiles of 5000 rows at a time: after the region its
  output array holds, at (r, q), max ((agg (r, q) + xw (r, q) * w r) + b1 q) 0 of the arrays the region was entered with.
-/
import proofs.«120330_j55602646614062_1_alg».proof.Proof.Gen.KernelIdeal.Frame
import Idealize.ShloMosaic.Lib.Pipeline.Value
import Idealize.ShloMosaic.Lib.ValueIdx
import proofs.«120330_j55602646614062_1_alg».proof.Proof.LibGcnTile

set_option maxRecDepth 16384

noncomputable section

namespace Cert.KernelIdeal.LayerOne

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer's output from the aggregated array, the projected array, the column of self-loop weights and the bias
    row, entry by entry: `max ((agg i + xw i * w (row of i)) + bias (column of i)) 0`. -/
def layerOut (agg xw : FVec Ideal S50000x128 .f32) (w : FVec Ideal S50000x1 .f32) (bias : FVec Ideal S1x128 .f32) :
    FVec Ideal S50000x128 .f32 :=
  fun i => max ((agg i + xw i * w (ix2 (i 0) (0 : Fin 1))) + bias (ix2 (0 : Fin 1) (i 1))) (Ideal.ofBits .f32 0x00000000#32)

/-- One tile: the same expression of the four blocks, the weights' block a column and the bias block a row. -/
theorem tile_apply (x0 x1 : Vec Ideal S5000x128 .f32) (x2 : Vec Ideal S5000x1 .f32) (x3 : Vec Ideal S1x128 .f32) (j : S5000x128.Idx) :
    k1_pay1 x0 x1 x2 x3 j
      = max ((x0 j + x1 j * x2 (ix2 (j 0) (0 : Fin 1))) + x3 (ix2 (0 : Fin 1) (j 1))) (Ideal.ofBits .f32 0x00000000#32) := by
  obtain ⟨p, q, rfl⟩ : ∃ (p : Fin 5000) (q : Fin 128), j = ix2 p q := ⟨j 0, j 1, eq_ix2 j⟩
  unfold k1_pay1
  exact Cert.Lib.tileSelfBiasRelu_apply x0 x1 x2 x3 _ _ _ _ _ p q

/-- The entry's expression read at equal indices. -/
theorem entry_congr (A0 A1 : FVec Ideal S50000x128 .f32) (A2 : FVec Ideal S50000x1 .f32) (A3 : FVec Ideal S1x128 .f32)
    {i0 i1 i : S50000x128.Idx} {r r' : S50000x1.Idx} {s s' : S1x128.Idx}
    (h0 : i0 = i) (h1 : i1 = i) (h2 : r = r') (h3 : s = s') :
    max ((A0 i0 + A1 i1 * A2 r) + A3 s) (Ideal.ofBits .f32 0x00000000#32)
      = max ((A0 i + A1 i * A2 r') + A3 s') (Ideal.ofBits .f32 0x00000000#32) := by rw [h0, h1, h2, h3]

/-- The printed block maps over the ten grid points: the aggregated, projected and weight blocks move with the
    output's row block; the bias row is one block; no map leaves column block zero. -/
theorem idx_facts : ∀ t : Fin cfg1.N, win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = win1_4.index t (0 : Fin 2)
    ∧ win1_2.index t (1 : Fin 2) = 0
    ∧ win1_3.index t (0 : Fin 2) = 0
    ∧ win1_3.index t (1 : Fin 2) = 0
    ∧ win1_4.index t (1 : Fin 2) = 0 :=
  (by decide +kernel : ∀ t : Fin grid1.N, _)

/-- Every row block of the output is some point's. -/
theorem idx_onto : ∀ q0 : Fin 10, ∃ t : Fin cfg1.N, win1_4.index t = ![q0.val, 0] :=
  (by decide +kernel : ∀ q0 : Fin 10, ∃ t : Fin grid1.N, win1_4.index t = ![q0.val, 0])

/-- What point `t` writes back is block `t` of the layer's output of the arrays as the region finds them. -/
theorem flushed_eq (c : Dev nD) (t : Fin cfg1.N) :
    (dat1 V c).flushed 4 t
      = ((cfg1.win 4).blk t).view.read (Elt Ideal) (layerOut (V c main_v43) (V c main_v30) (V c main_v29) (V c main_v44)) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz, View.ld_unit_zero (S := S1x128) hz]
  obtain ⟨e0, e1, e2, e3, e4, e5, e6, e7, e8⟩ := idx_facts t
  funext j
  show k1_pay1 (iblk1 V c 0 t) (iblk1 V c 1 t) (iblk1 V c 2 t) (iblk1 V c 3 t) j
    = layerOut (V c main_v43) (V c main_v30) (V c main_v29) (V c main_v44) (((cfg1.win 4).blk t).view.emb j)
  refine (tile_apply _ _ _ _ j).trans ?_
  unfold layerOut
  have h0 : ((cfg1.win 0).blk t).view.emb j = ((cfg1.win 4).blk t).view.emb j := by
    funext a; apply Fin.ext
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * (j 1).val = win1_4.index t (1 : Fin 2) * 128 + 1 * (j 1).val; omega
  have h1 : ((cfg1.win 1).blk t).view.emb j = ((cfg1.win 4).blk t).view.emb j := by
    funext a; apply Fin.ext
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 128 + 1 * (j 1).val = win1_4.index t (1 : Fin 2) * 128 + 1 * (j 1).val; omega
  have h2 : ((cfg1.win 2).blk t).view.emb (ix2 (j 0) (0 : Fin 1)) = ix2 ((((cfg1.win 4).blk t).view.emb j) 0) (0 : Fin 1) := by
    funext a; apply Fin.ext
    match a with
    | ⟨0, _⟩ => show win1_2.index t (0 : Fin 2) * 5000 + 1 * (j 0).val = win1_4.index t (0 : Fin 2) * 5000 + 1 * (j 0).val; omega
    | ⟨1, _⟩ => show win1_2.index t (1 : Fin 2) * 1 + 1 * 0 = 0; omega
  have h3 : ((cfg1.win 3).blk t).view.emb (ix2 (0 : Fin 1) (j 1)) = ix2 (0 : Fin 1) ((((cfg1.win 4).blk t).view.emb j) 1) := by
    funext a; apply Fin.ext
    match a with
    | ⟨0, _⟩ => show win1_3.index t (0 : Fin 2) * 1 + 1 * 0 = 0; omega
    | ⟨1, _⟩ => show win1_3.index t (1 : Fin 2) * 128 + 1 * (j 1).val = win1_4.index t (1 : Fin 2) * 128 + 1 * (j 1).val; omega
  exact entry_congr (V c main_v43) (V c main_v30) (V c main_v29) (V c main_v44) h0 h1 h2 h3

/-- An index of the output array is in point `t`'s block iff each coordinate is in the block's range on its axis. -/
theorem mem_blk (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v45).slice (win1_4.rect t)).set ↔ _
  rw [View.set_slice_whole, Rect.mem_set_unit]
  exact Iff.rfl

/-- The ten row blocks fill the output array: row `r` is in block `r / 5000`. -/
theorem cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ := idx_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The output array after the region: the layer's output of the four arrays as the region finds them. -/
theorem final (c : Dev nD) :
    (dat1 V c).arrAt 4 cfg1.N = layerOut (V c main_v43) (V c main_v30) (V c main_v29) (V c main_v44) :=
  (dat1 V c).arrAt_eq_of_cover 4 (layerOut (V c main_v43) (V c main_v30) (V c main_v29) (V c main_v44)) (fun t _ => flushed_eq V c t) cover

end Cert.KernelIdeal.LayerOne

end
-- ==== Proof.ProjectionTwo.lean ====
/-
  The second projection h1 · W2, computed ten row tiles of 5000 rows at a time: after the region its result array holds,
  at (r, q), the sum over k of h1 (r, k) * W2 (k, q) of the arrays the region was entered with.
-/
import proofs.«120330_j55602646614062_1_alg».proof.Proof.Gen.KernelIdeal.Frame
import Idealize.ShloMosaic.Lib.Pipeline.Value
import Idealize.ShloMosaic.Lib.ValueIdx
import proofs.«120330_j55602646614062_1_alg».proof.Proof.LibMatmul2

set_option maxRecDepth 16384

noncomputable section

namespace Cert.KernelIdeal.ProjectionTwo

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The product of a `[50000, 128]` array with a `[128, 64]` matrix, entry by entry: row `i 0` of the left against
    column `i 1` of the right. -/
def rowsTimes (X : FVec Ideal S50000x128 .f32) (M : FVec Ideal S128x64 .f32) : FVec Ideal S50000x64 .f32 :=
  fun i => ∑ k : Fin 128, X (ix2 (i 0) k) * M (ix2 k (i 1))

/-- One tile's product: the entry at `j` of a 5000-row block times the whole matrix is the sum over the contraction
    axis (the narrowing of both operands to bf16 changes nothing on the extended reals, the left block's cast to its own
    shape is the identity, and the accumulator starts at zero). -/
theorem tile_apply (x0 : Vec Ideal S5000x128 .f32) (x1 : Vec Ideal S128x64 .f32) (j : S5000x64.Idx) :
    k2_pay1 x0 x1 j = ∑ k : Fin 128, x0 (ix2 (j 0) k) * x1 (ix2 k (j 1)) := by
  obtain ⟨p, q, rfl⟩ : ∃ (p : Fin 5000) (q : Fin 64), j = ix2 p q := ⟨j 0, j 1, eq_ix2 j⟩
  unfold k2_pay1
  refine (Cert.Lib.matmul2_zero_apply dot_S5000x128_S128x64_S5000x64_1_0_0_1_n_n.wf _ _ p q).trans ?_
  refine Finset.sum_congr rfl fun k _ => ?_
  rw [truncf_apply, truncf_apply, shapeCast_self]

/-- One term of the sum read at equal indices. -/
theorem term_congr (X : FVec Ideal S50000x128 .f32) (M : FVec Ideal S128x64 .f32) {i i' : S50000x128.Idx} {l l' : S128x64.Idx}
    (h0 : i = i') (h1 : l = l') : X i * M l = X i' * M l' := by rw [h0, h1]

/-- The printed block maps over the ten grid points: the row blocks of the left operand and of the result move
    together, one block per point; the matrix is one block; no map leaves column block zero. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 9 :=
  (by decide +kernel : ∀ t : Fin grid2.N, _)

/-- Every row block of the result is some point's. -/
theorem idx_onto : ∀ q0 : Fin 10, ∃ t : Fin cfg2.N, win2_2.index t = ![q0.val, 0] :=
  (by decide +kernel : ∀ q0 : Fin 10, ∃ t : Fin grid2.N, win2_2.index t = ![q0.val, 0])

/-- What point `t` writes back is block `t` of the whole product of the arrays as the region finds them. -/
theorem flushed_eq (c : Dev nD) (t : Fin cfg2.N) :
    (dat2 V c).flushed 2 t
      = ((cfg2.win 2).blk t).view.read (Elt Ideal) (rowsTimes (V c main_v45) (V c main_arg5)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x64) hz]
  obtain ⟨e0, e1, e2, e3, e4, -⟩ := idx_facts t
  funext j
  show k2_pay1 (iblk2 V c 0 t) (iblk2 V c 1 t) j = rowsTimes (V c main_v45) (V c main_arg5) (((cfg2.win 2).blk t).view.emb j)
  refine (tile_apply _ _ j).trans ?_
  unfold rowsTimes
  refine Finset.sum_congr rfl fun k _ => ?_
  have h0 : ((cfg2.win 0).blk t).view.emb (ix2 (j 0) k) = ix2 ((((cfg2.win 2).blk t).view.emb j) 0) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have h1 : ((cfg2.win 1).blk t).view.emb (ix2 k (j 1)) = ix2 k ((((cfg2.win 2).blk t).view.emb j) 1) := by
    funext a; apply Fin.ext
    match a with
    | ⟨0, _⟩ => show win2_1.index t (0 : Fin 2) * 128 + 1 * k.val = k.val; omega
    | ⟨1, _⟩ => show win2_1.index t (1 : Fin 2) * 64 + 1 * (j 1).val = win2_2.index t (1 : Fin 2) * 64 + 1 * (j 1).val; omega
  exact term_congr (V c main_v45) (V c main_arg5) h0 h1

/-- An index of the result array is in point `t`'s block iff each coordinate is in the block's range on its axis. -/
theorem mem_blk (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v46).slice (win2_2.rect t)).set ↔ _
  rw [View.set_slice_whole, Rect.mem_set_unit]
  exact Iff.rfl

/-- The ten row blocks fill the result array: row `r` is in block `r / 5000`. -/
theorem cover (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- The result array after the region: the whole product of the two operand arrays as the region finds them. -/
theorem final (c : Dev nD) : (dat2 V c).arrAt 2 cfg2.N = rowsTimes (V c main_v45) (V c main_arg5) :=
  (dat2 V c).arrAt_eq_of_cover 2 (rowsTimes (V c main_v45) (V c main_arg5)) (fun t _ => flushed_eq V c t) cover

end Cert.KernelIdeal.ProjectionTwo

end
-- ==== Proof.LayerTwo.lean ====
/-
  The second layer's self-loop, bias and rectifier, computed ten row tiles of 5000 rows at a time: after the region its
  output array holds, at (r, q), max ((agg (r, q) + xw (r, q) * w r) + b2 q) 0 of the arrays the region was entered with.
-/
import proofs.«120330_j55602646614062_1_alg».proof.Proof.Gen.KernelIdeal.Frame
import Idealize.ShloMosaic.Lib.Pipeline.Value
import Idealize.ShloMosaic.Lib.ValueIdx
import proofs.«120330_j55602646614062_1_alg».proof.Proof.LibGcnTile

set_option maxRecDepth 16384

noncomputable section

namespace Cert.KernelIdeal.LayerTwo

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer's output from the aggregated array, the projected array, the column of self-loop weights and the bias
    row, entry by entry: `max ((agg i + xw i * w (row of i)) + bias (column of i)) 0`. -/
def layerOut (agg xw : FVec Ideal S50000x64 .f32) (w : FVec Ideal S50000x1 .f32) (bias : FVec Ideal S1x64 .f32) :
    FVec Ideal S50000x64 .f32 :=
  fun i => max ((agg i + xw i * w (ix2 (i 0) (0 : Fin 1))) + bias (ix2 (0 : Fin 1) (i 1))) (Ideal.ofBits .f32 0x00000000#32)

/-- One tile: the same expression of the four blocks, the weights' block a column and the bias block a row. -/
theorem tile_apply (x0 x1 : Vec Ideal S5000x64 .f32) (x2 : Vec Ideal S5000x1 .f32) (x3 : Vec Ideal S1x64 .f32) (j : S5000x64.Idx) :
    k3_pay1 x0 x1 x2 x3 j
      = max ((x0 j + x1 j * x2 (ix2 (j 0) (0 : Fin 1))) + x3 (ix2 (0 : Fin 1) (j 1))) (Ideal.ofBits .f32 0x00000000#32) := by
  obtain ⟨p, q, rfl⟩ : ∃ (p : Fin 5000) (q : Fin 64), j = ix2 p q := ⟨j 0, j 1, eq_ix2 j⟩
  unfold k3_pay1
  exact Cert.Lib.tileSelfBiasRelu_apply x0 x1 x2 x3 _ _ _ _ _ p q

/-- The entry's expression read at equal indices. -/
theorem entry_congr (A0 A1 : FVec Ideal S50000x64 .f32) (A2 : FVec Ideal S50000x1 .f32) (A3 : FVec Ideal S1x64 .f32)
    {i0 i1 i : S50000x64.Idx} {r r' : S50000x1.Idx} {s s' : S1x64.Idx}
    (h0 : i0 = i) (h1 : i1 = i) (h2 : r = r') (h3 : s = s') :
    max ((A0 i0 + A1 i1 * A2 r) + A3 s) (Ideal.ofBits .f32 0x00000000#32)
      = max ((A0 i + A1 i * A2 r') + A3 s') (Ideal.ofBits .f32 0x00000000#32) := by rw [h0, h1, h2, h3]

/-- The printed block maps over the ten grid points: the aggregated, projected and weight blocks move with the
    output's row block; the bias row is one block; no map leaves column block zero. -/
theorem idx_facts : ∀ t : Fin cfg3.N, win3_0.index t (0 : Fin 2) = win3_4.index t (0 : Fin 2)
    ∧ win3_0.index t (1 : Fin 2) = 0
    ∧ win3_1.index t (0 : Fin 2) = win3_4.index t (0 : Fin 2)
    ∧ win3_1.index t (1 : Fin 2) = 0
    ∧ win3_2.index t (0 : Fin 2) = win3_4.index t (0 : Fin 2)
    ∧ win3_2.index t (1 : Fin 2) = 0
    ∧ win3_3.index t (0 : Fin 2) = 0
    ∧ win3_3.index t (1 : Fin 2) = 0
    ∧ win3_4.index t (1 : Fin 2) = 0 :=
  (by decide +kernel : ∀ t : Fin grid3.N, _)

/-- Every row block of the output is some point's. -/
theorem idx_onto : ∀ q0 : Fin 10, ∃ t : Fin cfg3.N, win3_4.index t = ![q0.val, 0] :=
  (by decide +kernel : ∀ q0 : Fin 10, ∃ t : Fin grid3.N, win3_4.index t = ![q0.val, 0])

/-- What point `t` writes back is block `t` of the layer's output of the arrays as the region finds them. -/
theorem flushed_eq (c : Dev nD) (t : Fin cfg3.N) :
    (dat3 V c).flushed 4 t
      = ((cfg3.win 4).blk t).view.read (Elt Ideal) (layerOut (V c main_v59) (V c main_v46) (V c main_v29) (V c main_v60)) := by
  show (cfg3.win 4).cut (grid3.coords t) ((dat3 V c).after 4 t) = _
  rw [after3_4]
  unfold out3_4
  rw [View.canon_unit_zero hz]
  simp only [View.ld_unit_zero (S := S5000x64) hz, View.ld_unit_zero (S := S5000x1) hz, View.ld_unit_zero (S := S1x64) hz]
  obtain ⟨e0, e1, e2, e3, e4, e5, e6, e7, e8⟩ := idx_facts t
  funext j
  show k3_pay1 (iblk3 V c 0 t) (iblk3 V c 1 t) (iblk3 V c 2 t) (iblk3 V c 3 t) j
    = layerOut (V c main_v59) (V c main_v46) (V c main_v29) (V c main_v60) (((cfg3.win 4).blk t).view.emb j)
  refine (tile_apply _ _ _ _ j).trans ?_
  unfold layerOut
  have h0 : ((cfg3.win 0).blk t).view.emb j = ((cfg3.win 4).blk t).view.emb j := by
    funext a; apply Fin.ext
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 64 + 1 * (j 1).val = win3_4.index t (1 : Fin 2) * 64 + 1 * (j 1).val; omega
  have h1 : ((cfg3.win 1).blk t).view.emb j = ((cfg3.win 4).blk t).view.emb j := by
    funext a; apply Fin.ext
    match a with
    | ⟨0, _⟩ => show win3_1.index t (0 : Fin 2) * 5000 + 1 * (j 0).val = win3_4.index t (0 : Fin 2) * 5000 + 1 * (j 0).val; omega
    | ⟨1, _⟩ => show win3_1.index t (1 : Fin 2) * 64 + 1 * (j 1).val = win3_4.index t (1 : Fin 2) * 64 + 1 * (j 1).val; omega
  have h2 : ((cfg3.win 2).blk t).view.emb (ix2 (j 0) (0 : Fin 1)) = ix2 ((((cfg3.win 4).blk t).view.emb j) 0) (0 : Fin 1) := by
    funext a; apply Fin.ext
    match a with
    | ⟨0, _⟩ => show win3_2.index t (0 : Fin 2) * 5000 + 1 * (j 0).val = win3_4.index t (0 : Fin 2) * 5000 + 1 * (j 0).val; omega
    | ⟨1, _⟩ => show win3_2.index t (1 : Fin 2) * 1 + 1 * 0 = 0; omega
  have h3 : ((cfg3.win 3).blk t).view.emb (ix2 (0 : Fin 1) (j 1)) = ix2 (0 : Fin 1) ((((cfg3.win 4).blk t).view.emb j) 1) := by
    funext a; apply Fin.ext
    match a with
    | ⟨0, _⟩ => show win3_3.index t (0 : Fin 2) * 1 + 1 * 0 = 0; omega
    | ⟨1, _⟩ => show win3_3.index t (1 : Fin 2) * 64 + 1 * (j 1).val = win3_4.index t (1 : Fin 2) * 64 + 1 * (j 1).val; omega
  exact entry_congr (V c main_v59) (V c main_v46) (V c main_v29) (V c main_v60) h0 h1 h2 h3

/-- An index of the output array is in point `t`'s block iff each coordinate is in the block's range on its axis. -/
theorem mem_blk (t : Fin cfg3.N) (i : S50000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v61).slice (win3_4.rect t)).set ↔ _
  rw [View.set_slice_whole, Rect.mem_set_unit]
  exact Iff.rfl

/-- The ten row blocks fill the output array: row `r` is in block `r / 5000`. -/
theorem cover (i : S50000x64.Idx) :
    ∃ t : Fin cfg3.N, (cfg3.win 4).flush t = true ∧ i ∈ ((cfg3.win 4).blk t).view.set := by
  have hi0 : (i 0).val < 50000 := (i 0).isLt
  have hi1 : (i 1).val < 64 := (i 1).isLt
  obtain ⟨t, ht⟩ := idx_onto ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_blk]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 64 ≤ (i 1).val ∧ (i 1).val < win3_4.index t (1 : Fin 2) * 64 + 64; omega

/-- The output array after the region: the layer's output of the four arrays as the region finds them. -/
theorem final (c : Dev nD) :
    (dat3 V c).arrAt 4 cfg3.N = layerOut (V c main_v59) (V c main_v46) (V c main_v29) (V c main_v60) :=
  (dat3 V c).arrAt_eq_of_cover 4 (layerOut (V c main_v59) (V c main_v46) (V c main_v29) (V c main_v60)) (fun t _ => flushed_eq V c t) cover

end Cert.KernelIdeal.LayerTwo

end
-- ==== Proof.LibHostDot2.lean ====
/-
  The host's plain matrix product read at an index.

  A `dot_general` on the host with the dimension numbers of a plain matrix product ("contract axis 1 of the left operand
  with axis 0 of the right, no batch axes") of an [A, K] and a [K, B] matrix is, at the ideal values and at output
  position (p, q), the sum over k < K of left(p, k) · right(k, q): the host product has no accumulator, its contraction
  shape has the one axis of extent K, and the operand indices at output (p, q) and contraction position k are (p, k)
  and (k, q). It is the same sum a `tpu.matmul` of those dimension numbers into the zero accumulator computes
  (`Cert.Lib.matmul2_zero_apply`), so a kernel that multiplies block by block and a reference that multiplies once
  agree entry by entry.
-/
import proofs.«120330_j55602646614062_1_alg».proof.Proof.LibMatmul2

noncomputable section

namespace Cert.Lib

open Idealize.ShloMosaic Idealize.ShloMosaic.ValueIdx

variable {A K B : ℕ} {φ₁ φ₂ : FTy}

/-- At output position (p, q) and contraction position k the left operand of a plain product is read at (p, k), -/
theorem plain2_lhsIdx (wf : DotDims.WF ⟨2, ![A, K]⟩ ⟨2, ![K, B]⟩ ⟨2, ![A, B]⟩ [1] [0] [0] [1] [] [])
    (p : Fin A) (q : Fin B) (k : Fin K) :
    (plain2 wf).lhsIdx (ix2 p q) ((contrEquiv1 (plain2 wf) K (plain2_rank wf) (plain2_size wf)).symm k) = ix2 p k := by
  have hk := contrEquiv1_symm_val (plain2 wf) K (plain2_rank wf) (plain2_size wf) k
  funext a; apply Fin.ext
  match a with
  | ⟨0, _⟩ => simp [DotDims.lhsIdx]; rfl
  | ⟨1, _⟩ => exact (DotDims.lhsIdx_val_of_single (plain2 wf) (cl := 1) rfl (ix2 p q) _).trans hk

/-- and the right operand at (k, q). -/
theorem plain2_rhsIdx (wf : DotDims.WF ⟨2, ![A, K]⟩ ⟨2, ![K, B]⟩ ⟨2, ![A, B]⟩ [1] [0] [0] [1] [] [])
    (p : Fin A) (q : Fin B) (k : Fin K) :
    (plain2 wf).rhsIdx (ix2 p q) ((contrEquiv1 (plain2 wf) K (plain2_rank wf) (plain2_size wf)).symm k) = ix2 k q := by
  have hk := contrEquiv1_symm_val (plain2 wf) K (plain2_rank wf) (plain2_size wf) k
  funext a; apply Fin.ext
  match a with
  | ⟨0, _⟩ => exact (DotDims.rhsIdx_val_of_single (plain2 wf) (cr := 0) rfl (ix2 p q) _).trans hk
  | ⟨1, _⟩ => simp [DotDims.rhsIdx]; rfl

/-- The host's product at (p, q) is `∑ k, l (p, k) * r (k, q)`. -/
theorem hostDot2_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    Host.dotGeneral (plain2 wf) none l r (ix2 p q) = ∑ k : Fin K, l (ix2 p k) * r (ix2 k q) := by
  refine (Ideal.dotGeneral_apply (plain2 wf) none .single l r (ix2 p q)).trans ?_
  refine (Equiv.sum_comp (contrEquiv1 (plain2 wf) K (plain2_rank wf) (plain2_size wf)).symm _).symm.trans ?_
  refine Finset.sum_congr rfl fun k _ => ?_
  show l _ * r _ = _
  rw [plain2_lhsIdx, plain2_rhsIdx]

end Cert.Lib

end
-- ==== Proof.LibColumnCast.lean ====
/-
  A vector made a column, read at an entry.

  Reshaping a vector of a entries to an [a, 1] matrix keeps the row-major order, so the matrix's entry (i, 0) is the
  vector's entry i. Generic in the extent and the element type.
-/
import Idealize.ShloMosaic.Lib.Pipeline.Value
import Idealize.ShloMosaic.Lib.ValueIdx

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib
-- ==== Proof.TilesAreLayers.lean ====
/-
  The four tiled regions compute the specification's pieces.  A projection region's array of contraction sums is the
  host's matrix product of the same operands (both are, entry by entry, the sum over the contraction axis).  A layer
  region's array — with the self-loop weights entering as the vector cast to a column and the bias as the vector cast
  to a row — is the host's sum of the aggregated array, the projected array times the weights repeated across the
  columns, and the bias repeated down the rows, rectified.
-/
import proofs.«120330_j55602646614062_1_alg».proof.Proof.ProjectionOne
import proofs.«120330_j55602646614062_1_alg».proof.Proof.LayerOne
import proofs.«120330_j55602646614062_1_alg».proof.Proof.ProjectionTwo
import proofs.«120330_j55602646614062_1_alg».proof.Proof.LayerTwo
import proofs.«120330_j55602646614062_1_alg».proof.Proof.GcnTerms
import proofs.«120330_j55602646614062_1_alg».proof.Proof.LibHostDot2
import proofs.«120330_j55602646614062_1_alg».proof.Proof.LibGcnTile
import proofs.«120330_j55602646614062_1_alg».proof.Proof.LibColumnCast
import Idealize.ShloMosaic.Lib.ValueLayout

set_option maxRecDepth 16384

noncomputable section

namespace Cert.Gcn

open Idealize.ShloMosaic Idealize.ShloMosaic.ValueIdx

/-- The first projection region's array is the host's product. -/
theorem rowsTimes_eq_proj128 (X : FVec Ideal Cert.ReferenceIdeal.S50000x128 .f32) (M : FVec Ideal Cert.ReferenceIdeal.S128x128 .f32) :
    Cert.KernelIdeal.ProjectionOne.rowsTimes X M = proj128 X M := by
  funext i
  obtain ⟨p, q, rfl⟩ : ∃ (p : Fin 50000) (q : Fin 128), i = ix2 p q := ⟨i 0, i 1, eq_ix2 i⟩
  unfold proj128
  exact (Cert.Lib.hostDot2_apply Cert.ReferenceIdeal.dot_S50000x128_S128x128_S50000x128_1_0_0_1_n_n.wf X M p q).symm

/-- The second projection region's array is the host's product. -/
theorem rowsTimes_eq_proj64 (X : FVec Ideal Cert.ReferenceIdeal.S50000x128 .f32) (M : FVec Ideal Cert.ReferenceIdeal.S128x64 .f32) :
    Cert.KernelIdeal.ProjectionTwo.rowsTimes X M = proj64 X M := by
  funext i
  obtain ⟨p, q, rfl⟩ : ∃ (p : Fin 50000) (q : Fin 64), i = ix2 p q := ⟨i 0, i 1, eq_ix2 i⟩
  unfold proj64
  exact (Cert.Lib.hostDot2_apply Cert.ReferenceIdeal.dot_S50000x128_S128x64_S50000x64_1_0_0_1_n_n.wf X M p q).symm

/-- The first layer region's array, its weights a vector cast to a column and its bias a vector cast to a row, is the
    host's layer. -/
theorem layerOut_eq_layer128 (agg xw : FVec Ideal Cert.ReferenceIdeal.S50000x128 .f32) (w : FVec Ideal Cert.ReferenceIdeal.S50000 .f32)
    (b : FVec Ideal Cert.ReferenceIdeal.S128 .f32) (hw : Cert.ReferenceIdeal.S50000.ShapeCasts Cert.ReferenceIdeal.S50000x1) (hb : Cert.ReferenceIdeal.S128.ShapeCasts Cert.ReferenceIdeal.S1x128) :
    Cert.KernelIdeal.LayerOne.layerOut agg xw (shapeCast Cert.ReferenceIdeal.S50000x1 w hw) (shapeCast Cert.ReferenceIdeal.S1x128 b hb) = layer128 agg xw w b := by
  funext i
  obtain ⟨p, q, rfl⟩ : ∃ (p : Fin 50000) (q : Fin 128), i = ix2 p q := ⟨i 0, i 1, eq_ix2 i⟩
  unfold layer128
  refine Eq.trans ?_ (Cert.Lib.hostSelfBiasRelu_apply agg xw w b _ _ _ _ _ p q).symm
  unfold Cert.KernelIdeal.LayerOne.layerOut
  rw [Cert.Lib.shapeCast_a_a1_apply, shapeCast_a_1a_apply]

/-- The second layer region's array likewise. -/
theorem layerOut_eq_layer64 (agg xw : FVec Ideal Cert.ReferenceIdeal.S50000x64 .f32) (w : FVec Ideal Cert.ReferenceIdeal.S50000 .f32)
    (b : FVec Ideal Cert.ReferenceIdeal.S64 .f32) (hw : Cert.ReferenceIdeal.S50000.ShapeCasts Cert.ReferenceIdeal.S50000x1) (hb : Cert.ReferenceIdeal.S64.ShapeCasts Cert.ReferenceIdeal.S1x64) :
    Cert.KernelIdeal.LayerTwo.layerOut agg xw (shapeCast Cert.ReferenceIdeal.S50000x1 w hw) (shapeCast Cert.ReferenceIdeal.S1x64 b hb) = layer64 agg xw w b := by
  funext i
  obtain ⟨p, q, rfl⟩ : ∃ (p : Fin 50000) (q : Fin 64), i = ix2 p q := ⟨i 0, i 1, eq_ix2 i⟩
  unfold layer64
  refine Eq.trans ?_ (Cert.Lib.hostSelfBiasRelu_apply agg xw w b _ _ _ _ _ p q).symm
  unfold Cert.KernelIdeal.LayerTwo.layerOut
  rw [Cert.Lib.shapeCast_a_a1_apply, shapeCast_a_1a_apply]

end Cert.Gcn

end
-- ==== Proof.BoundaryA.lean ====
/-
  The idealized kernel's buffers at its first four boundaries, as the specification's pieces of the launch arguments.
  The first stretch of host operations computes the edge rows, the normalised edge weights and the self-loop weights
  (as a column); the first region the projection x · W1; the second stretch the aggregation over the edges and the
  bias as a row; the second region the first layer's output.  A buffer that a stretch or a region does not write keeps
  what it held.
-/
import proofs.«120330_j55602646614062_1_alg».proof.Proof.KernelRun
import proofs.«120330_j55602646614062_1_alg».proof.Proof.GcnTerms
import proofs.«120330_j55602646614062_1_alg».proof.Proof.TilesAreLayers
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

set_option quotPrecheck false

local notation "aX" => m ((c : Thread nD τ).loc main_arg0)
local notation "aEI" => m ((c : Thread nD τ).loc main_arg1)
local notation "aEW" => m ((c : Thread nD τ).loc main_arg2)
local notation "aW1" => m ((c : Thread nD τ).loc main_arg3)
local notation "aB1" => m ((c : Thread nD τ).loc main_arg4)
local notation "aW2" => m ((c : Thread nD τ).loc main_arg5)
local notation "aB2" => m ((c : Thread nD τ).loc main_arg6)
local notation "aWF" => m ((c : Thread nD τ).loc main_arg7)
local notation "aBF" => m ((c : Thread nD τ).loc main_arg8)

/-! ## After the first stretch of host operations -/

theorem at1_v1 : W1 m ρ c (Proc.devRef .tc main_v1) = Gcn.src aEI := by
  show StableHlo.after hostOps0 (W0 m ρ c) (Proc.devRef .tc main_v1) = _
  after_results_simp <;> rfl

theorem at1_v3 : W1 m ρ c (Proc.devRef .tc main_v3) = Gcn.dst aEI := by
  show StableHlo.after hostOps0 (W0 m ρ c) (Proc.devRef .tc main_v3) = _
  after_results_simp <;> rfl

theorem at1_v25 : W1 m ρ c (Proc.devRef .tc main_v25) = Gcn.norm aEI aEW := by
  show StableHlo.after hostOps0 (W0 m ρ c) (Proc.devRef .tc main_v25) = _
  after_results_simp <;> rfl

theorem at1_v29 : W1 m ρ c (Proc.devRef .tc main_v29) = shapeCast S50000x1 (Gcn.selfw aEI aEW) shapeCasts_S50000_S50000x1 := by
  show StableHlo.after hostOps0 (W0 m ρ c) (Proc.devRef .tc main_v29) = _
  after_results_simp <;> rfl

theorem at1_arg0 : W1 m ρ c (Proc.devRef .tc main_arg0) = aX := by
  show StableHlo.after hostOps0 (W0 m ρ c) (Proc.devRef .tc main_arg0) = _
  after_results_simp <;> rfl

theorem at1_arg3 : W1 m ρ c (Proc.devRef .tc main_arg3) = aW1 := by
  show StableHlo.after hostOps0 (W0 m ρ c) (Proc.devRef .tc main_arg3) = _
  after_results_simp <;> rfl

theorem at1_arg4 : W1 m ρ c (Proc.devRef .tc main_arg4) = aB1 := by
  show StableHlo.after hostOps0 (W0 m ρ c) (Proc.devRef .tc main_arg4) = _
  after_results_simp <;> rfl

theorem at1_arg5 : W1 m ρ c (Proc.devRef .tc main_arg5) = aW2 := by
  show StableHlo.after hostOps0 (W0 m ρ c) (Proc.devRef .tc main_arg5) = _
  after_results_simp <;> rfl

theorem at1_arg6 : W1 m ρ c (Proc.devRef .tc main_arg6) = aB2 := by
  show StableHlo.after hostOps0 (W0 m ρ c) (Proc.devRef .tc main_arg6) = _
  after_results_simp <;> rfl

theorem at1_arg7 : W1 m ρ c (Proc.devRef .tc main_arg7) = aWF := by
  show StableHlo.after hostOps0 (W0 m ρ c) (Proc.devRef .tc main_arg7) = _
  after_results_simp <;> rfl

theorem at1_arg8 : W1 m ρ c (Proc.devRef .tc main_arg8) = aBF := by
  show StableHlo.after hostOps0 (W0 m ρ c) (Proc.devRef .tc main_arg8) = _
  after_results_simp <;> rfl

/-! ## After the first projection region -/

theorem at2_v30 : W2 m ρ c (Proc.devRef .tc main_v30) = Gcn.proj128 aX aW1 := by
  refine (W2_arr m ρ c 2).trans ?_
  refine (ProjectionOne.final (V1 m ρ) c).trans ?_
  show ProjectionOne.rowsTimes (W1 m ρ c (Proc.devRef .tc main_arg0)) (W1 m ρ c (Proc.devRef .tc main_arg3)) = _
  rw [at1_arg0 m ρ c, at1_arg3 m ρ c]
  exact Gcn.rowsTimes_eq_proj128 _ _

theorem at2_v1 : W2 m ρ c (Proc.devRef .tc main_v1) = Gcn.src aEI :=
  (W2_of_ne m ρ c main_v1 (by decide)).trans (at1_v1 m ρ c)

theorem at2_v3 : W2 m ρ c (Proc.devRef .tc main_v3) = Gcn.dst aEI :=
  (W2_of_ne m ρ c main_v3 (by decide)).trans (at1_v3 m ρ c)

theorem at2_v25 : W2 m ρ c (Proc.devRef .tc main_v25) = Gcn.norm aEI aEW :=
  (W2_of_ne m ρ c main_v25 (by decide)).trans (at1_v25 m ρ c)

theorem at2_v29 : W2 m ρ c (Proc.devRef .tc main_v29) = shapeCast S50000x1 (Gcn.selfw aEI aEW) shapeCasts_S50000_S50000x1 :=
  (W2_of_ne m ρ c main_v29 (by decide)).trans (at1_v29 m ρ c)

theorem at2_arg4 : W2 m ρ c (Proc.devRef .tc main_arg4) = aB1 :=
  (W2_of_ne m ρ c main_arg4 (by decide)).trans (at1_arg4 m ρ c)

theorem at2_arg5 : W2 m ρ c (Proc.devRef .tc main_arg5) = aW2 :=
  (W2_of_ne m ρ c main_arg5 (by decide)).trans (at1_arg5 m ρ c)

theorem at2_arg6 : W2 m ρ c (Proc.devRef .tc main_arg6) = aB2 :=
  (W2_of_ne m ρ c main_arg6 (by decide)).trans (at1_arg6 m ρ c)

theorem at2_arg7 : W2 m ρ c (Proc.devRef .tc main_arg7) = aWF :=
  (W2_of_ne m ρ c main_arg7 (by decide)).trans (at1_arg7 m ρ c)

theorem at2_arg8 : W2 m ρ c (Proc.devRef .tc main_arg8) = aBF :=
  (W2_of_ne m ρ c main_arg8 (by decide)).trans (at1_arg8 m ρ c)

/-! ## After the second stretch of host operations -/

theorem at3_v43 : W3 m ρ c (Proc.devRef .tc main_v43) = Gcn.agg128 (Gcn.proj128 aX aW1) aEI aEW := by
  show StableHlo.after hostOps1 (W2 m ρ c) (Proc.devRef .tc main_v43) = _
  after_results_simp
  rw [at2_v30 m ρ c, at2_v1 m ρ c, at2_v3 m ρ c, at2_v25 m ρ c]
  rfl

theorem at3_v44 : W3 m ρ c (Proc.devRef .tc main_v44) = shapeCast S1x128 aB1 shapeCasts_S128_S1x128 := by
  show StableHlo.after hostOps1 (W2 m ρ c) (Proc.devRef .tc main_v44) = _
  after_results_simp
  rw [at2_arg4 m ρ c]
  rfl

theorem at3_v30 : W3 m ρ c (Proc.devRef .tc main_v30) = Gcn.proj128 aX aW1 := by
  show StableHlo.after hostOps1 (W2 m ρ c) (Proc.devRef .tc main_v30) = _
  after_results_simp
  exact at2_v30 m ρ c

theorem at3_v29 : W3 m ρ c (Proc.devRef .tc main_v29) = shapeCast S50000x1 (Gcn.selfw aEI aEW) shapeCasts_S50000_S50000x1 := by
  show StableHlo.after hostOps1 (W2 m ρ c) (Proc.devRef .tc main_v29) = _
  after_results_simp
  exact at2_v29 m ρ c

theorem at3_v1 : W3 m ρ c (Proc.devRef .tc main_v1) = Gcn.src aEI := by
  show StableHlo.after hostOps1 (W2 m ρ c) (Proc.devRef .tc main_v1) = _
  after_results_simp
  exact at2_v1 m ρ c

theorem at3_v3 : W3 m ρ c (Proc.devRef .tc main_v3) = Gcn.dst aEI := by
  show StableHlo.after hostOps1 (W2 m ρ c) (Proc.devRef .tc main_v3) = _
  after_results_simp
  exact at2_v3 m ρ c

theorem at3_v25 : W3 m ρ c (Proc.devRef .tc main_v25) = Gcn.norm aEI aEW := by
  show StableHlo.after hostOps1 (W2 m ρ c) (Proc.devRef .tc main_v25) = _
  after_results_simp
  exact at2_v25 m ρ c

theorem at3_arg5 : W3 m ρ c (Proc.devRef .tc main_arg5) = aW2 := by
  show StableHlo.after hostOps1 (W2 m ρ c) (Proc.devRef .tc main_arg5) = _
  after_results_simp
  exact at2_arg5 m ρ c

theorem at3_arg6 : W3 m ρ c (Proc.devRef .tc main_arg6) = aB2 := by
  show StableHlo.after hostOps1 (W2 m ρ c) (Proc.devRef .tc main_arg6) = _
  after_results_simp
  exact at2_arg6 m ρ c

theorem at3_arg7 : W3 m ρ c (Proc.devRef .tc main_arg7) = aWF := by
  show StableHlo.after hostOps1 (W2 m ρ c) (Proc.devRef .tc main_arg7) = _
  after_results_simp
  exact at2_arg7 m ρ c

theorem at3_arg8 : W3 m ρ c (Proc.devRef .tc main_arg8) = aBF := by
  show StableHlo.after hostOps1 (W2 m ρ c) (Proc.devRef .tc main_arg8) = _
  after_results_simp
  exact at2_arg8 m ρ c

/-! ## After the first layer region -/

theorem at4_v45 : W4 m ρ c (Proc.devRef .tc main_v45) = Gcn.hidden1 aX aEI aEW aW1 aB1 := by
  refine (W4_arr m ρ c 4).trans ?_
  refine (LayerOne.final (V3 m ρ) c).trans ?_
  show LayerOne.layerOut (W3 m ρ c (Proc.devRef .tc main_v43)) (W3 m ρ c (Proc.devRef .tc main_v30))
    (W3 m ρ c (Proc.devRef .tc main_v29)) (W3 m ρ c (Proc.devRef .tc main_v44)) = _
  rw [at3_v43 m ρ c, at3_v30 m ρ c, at3_v29 m ρ c, at3_v44 m ρ c]
  exact Gcn.layerOut_eq_layer128 _ _ _ _ _ _

/-- The self-loop weights' column is an input array of the region: no point writes it. -/
theorem at4_v29 : W4 m ρ c (Proc.devRef .tc main_v29) = shapeCast S50000x1 (Gcn.selfw aEI aEW) shapeCasts_S50000_S50000x1 :=
  ((W4_arr m ρ c 2).trans (((dat1 (V3 m ρ) c).arrAt_in 2 rfl _).trans (A_eq1 (V3 m ρ) c 2))).trans (at3_v29 m ρ c)

theorem at4_v1 : W4 m ρ c (Proc.devRef .tc main_v1) = Gcn.src aEI :=
  (W4_of_ne m ρ c main_v1 (by decide)).trans (at3_v1 m ρ c)

theorem at4_v3 : W4 m ρ c (Proc.devRef .tc main_v3) = Gcn.dst aEI :=
  (W4_of_ne m ρ c main_v3 (by decide)).trans (at3_v3 m ρ c)

theorem at4_v25 : W4 m ρ c (Proc.devRef .tc main_v25) = Gcn.norm aEI aEW :=
  (W4_of_ne m ρ c main_v25 (by decide)).trans (at3_v25 m ρ c)

theorem at4_arg5 : W4 m ρ c (Proc.devRef .tc main_arg5) = aW2 :=
  (W4_of_ne m ρ c main_arg5 (by decide)).trans (at3_arg5 m ρ c)

theorem at4_arg6 : W4 m ρ c (Proc.devRef .tc main_arg6) = aB2 :=
  (W4_of_ne m ρ c main_arg6 (by decide)).trans (at3_arg6 m ρ c)

theorem at4_arg7 : W4 m ρ c (Proc.devRef .tc main_arg7) = aWF :=
  (W4_of_ne m ρ c main_arg7 (by decide)).trans (at3_arg7 m ρ c)

theorem at4_arg8 : W4 m ρ c (Proc.devRef .tc main_arg8) = aBF :=
  (W4_of_ne m ρ c main_arg8 (by decide)).trans (at3_arg8 m ρ c)

end Cert.KernelIdeal.Whole

end
-- ==== Proof.BoundaryB.lean ====
/-
  The idealized kernel's buffers at its last four boundaries, as the specification's pieces of the launch arguments:
  the third region computes the projection h1 · W2, the third stretch of host operations the second aggregation and
  the bias as a row, the fourth region the second layer's output, and the last stretch the output head — the whole
  network of the nine arguments.
-/
import proofs.«120330_j55602646614062_1_alg».proof.Proof.BoundaryA
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

set_option quotPrecheck false

local notation "aX" => m ((c : Thread nD τ).loc main_arg0)
local notation "aEI" => m ((c : Thread nD τ).loc main_arg1)
local notation "aEW" => m ((c : Thread nD τ).loc main_arg2)
local notation "aW1" => m ((c : Thread nD τ).loc main_arg3)
local notation "aB1" => m ((c : Thread nD τ).loc main_arg4)
local notation "aW2" => m ((c : Thread nD τ).loc main_arg5)
local notation "aB2" => m ((c : Thread nD τ).loc main_arg6)
local notation "aWF" => m ((c : Thread nD τ).loc main_arg7)
local notation "aBF" => m ((c : Thread nD τ).loc main_arg8)

/-! ## After the second projection region -/

theorem at5_v46 : W5 m ρ c (Proc.devRef .tc main_v46) = Gcn.proj64 (Gcn.hidden1 aX aEI aEW aW1 aB1) aW2 := by
  refine (W5_arr m ρ c 2).trans ?_
  refine (ProjectionTwo.final (V4 m ρ) c).trans ?_
  show ProjectionTwo.rowsTimes (W4 m ρ c (Proc.devRef .tc main_v45)) (W4 m ρ c (Proc.devRef .tc main_arg5)) = _
  rw [at4_v45 m ρ c, at4_arg5 m ρ c]
  exact Gcn.rowsTimes_eq_proj64 _ _

theorem at5_v1 : W5 m ρ c (Proc.devRef .tc main_v1) = Gcn.src aEI :=
  (W5_of_ne m ρ c main_v1 (by decide)).trans (at4_v1 m ρ c)

theorem at5_v3 : W5 m ρ c (Proc.devRef .tc main_v3) = Gcn.dst aEI :=
  (W5_of_ne m ρ c main_v3 (by decide)).trans (at4_v3 m ρ c)

theorem at5_v25 : W5 m ρ c (Proc.devRef .tc main_v25) = Gcn.norm aEI aEW :=
  (W5_of_ne m ρ c main_v25 (by decide)).trans (at4_v25 m ρ c)

theorem at5_v29 : W5 m ρ c (Proc.devRef .tc main_v29) = shapeCast S50000x1 (Gcn.selfw aEI aEW) shapeCasts_S50000_S50000x1 :=
  (W5_of_ne m ρ c main_v29 (by decide)).trans (at4_v29 m ρ c)

theorem at5_arg6 : W5 m ρ c (Proc.devRef .tc main_arg6) = aB2 :=
  (W5_of_ne m ρ c main_arg6 (by decide)).trans (at4_arg6 m ρ c)

theorem at5_arg7 : W5 m ρ c (Proc.devRef .tc main_arg7) = aWF :=
  (W5_of_ne m ρ c main_arg7 (by decide)).trans (at4_arg7 m ρ c)

theorem at5_arg8 : W5 m ρ c (Proc.devRef .tc main_arg8) = aBF :=
  (W5_of_ne m ρ c main_arg8 (by decide)).trans (at4_arg8 m ρ c)

/-! ## After the third stretch of host operations -/

theorem at6_v59 : W6 m ρ c (Proc.devRef .tc main_v59) = Gcn.agg64 (Gcn.proj64 (Gcn.hidden1 aX aEI aEW aW1 aB1) aW2) aEI aEW := by
  show StableHlo.after hostOps3 (W5 m ρ c) (Proc.devRef .tc main_v59) = _
  after_results_simp
  rw [at5_v46 m ρ c, at5_v1 m ρ c, at5_v3 m ρ c, at5_v25 m ρ c]
  rfl

theorem at6_v60 : W6 m ρ c (Proc.devRef .tc main_v60) = shapeCast S1x64 aB2 shapeCasts_S64_S1x64 := by
  show StableHlo.after hostOps3 (W5 m ρ c) (Proc.devRef .tc main_v60) = _
  after_results_simp
  rw [at5_arg6 m ρ c]
  rfl

theorem at6_v46 : W6 m ρ c (Proc.devRef .tc main_v46) = Gcn.proj64 (Gcn.hidden1 aX aEI aEW aW1 aB1) aW2 := by
  show StableHlo.after hostOps3 (W5 m ρ c) (Proc.devRef .tc main_v46) = _
  after_results_simp
  exact at5_v46 m ρ c

theorem at6_v29 : W6 m ρ c (Proc.devRef .tc main_v29) = shapeCast S50000x1 (Gcn.selfw aEI aEW) shapeCasts_S50000_S50000x1 := by
  show StableHlo.after hostOps3 (W5 m ρ c) (Proc.devRef .tc main_v29) = _
  after_results_simp
  exact at5_v29 m ρ c

theorem at6_arg7 : W6 m ρ c (Proc.devRef .tc main_arg7) = aWF := by
  show StableHlo.after hostOps3 (W5 m ρ c) (Proc.devRef .tc main_arg7) = _
  after_results_simp
  exact at5_arg7 m ρ c

theorem at6_arg8 : W6 m ρ c (Proc.devRef .tc main_arg8) = aBF := by
  show StableHlo.after hostOps3 (W5 m ρ c) (Proc.devRef .tc main_arg8) = _
  after_results_simp
  exact at5_arg8 m ρ c

/-! ## After the second layer region -/

theorem at7_v61 : W7 m ρ c (Proc.devRef .tc main_v61) = Gcn.hidden2 aX aEI aEW aW1 aB1 aW2 aB2 := by
  refine (W7_arr m ρ c 4).trans ?_
  refine (LayerTwo.final (V6 m ρ) c).trans ?_
  show LayerTwo.layerOut (W6 m ρ c (Proc.devRef .tc main_v59)) (W6 m ρ c (Proc.devRef .tc main_v46))
    (W6 m ρ c (Proc.devRef .tc main_v29)) (W6 m ρ c (Proc.devRef .tc main_v60)) = _
  rw [at6_v59 m ρ c, at6_v46 m ρ c, at6_v29 m ρ c, at6_v60 m ρ c]
  exact Gcn.layerOut_eq_layer64 _ _ _ _ _ _

theorem at7_arg7 : W7 m ρ c (Proc.devRef .tc main_arg7) = aWF :=
  (W7_of_ne m ρ c main_arg7 (by decide)).trans (at6_arg7 m ρ c)

theorem at7_arg8 : W7 m ρ c (Proc.devRef .tc main_arg8) = aBF :=
  (W7_of_ne m ρ c main_arg8 (by decide)).trans (at6_arg8 m ρ c)

/-! ## After the last stretch of host operations: the result -/

theorem at8_v65 : W8 m ρ c (Proc.devRef .tc main_v65) = Gcn.network aX aEI aEW aW1 aB1 aW2 aB2 aWF aBF := by
  show StableHlo.after hostOps4 (W7 m ρ c) (Proc.devRef .tc main_v65) = _
  after_results_simp
  rw [at7_v61 m ρ c, at7_arg7 m ρ c, at7_arg8 m ρ c]
  rfl

end Cert.KernelIdeal.Whole

end
-- ==== Proof.RefIsNetwork.lean ====
/-
  The reference program's result is the network of its arguments: its composed term, opened, is the named pieces of
  the specification one inside the other (the second layer's recomputed degrees are the first layer's term again).
-/
import proofs.«120330_j55602646614062_1_alg».proof.Proof.Gen.ReferenceIdeal.Run
import proofs.«120330_j55602646614062_1_alg».proof.Proof.GcnTerms

set_option maxRecDepth 16384

noncomputable section

namespace Cert.ReferenceIdeal.RefValue

open Cert.ReferenceIdeal Idealize.ShloMosaic Idealize.ShloMosaic.TcCoe Idealize.SL.Sem

/-- The run's result term is `network` of the nine argument arrays. -/
theorem res_eq (m : (ℓ : Loc nD τ sig) → Buf (Elt Ideal) ℓ) (c : Dev nD) :
    Cert.ReferenceIdeal.Value.res_main_v101 (F := Ideal) m c
      = Cert.Gcn.network (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6))
          (m ((c.tc : Thread Cert.ReferenceIdeal.nD Cert.ReferenceIdeal.τ).loc Cert.ReferenceIdeal.main_arg7))
          (m ((c.tc : Thread Cert.ReferenceIdeal.nD Cert.ReferenceIdeal.τ).loc Cert.ReferenceIdeal.main_arg8)) := by
  unfold Cert.ReferenceIdeal.Value.res_main_v101
  rfl

end Cert.ReferenceIdeal.RefValue

end
-- ==== Proof.lean ====
/-
  The certificate of a two-layer graph convolution: a kernel that computes the two dense projections and the two
  self-loop / bias / rectifier stages as row-tiled regions, with the edge gathers and scatters between them as host
  operations, against a reference that computes everything as host operations.

  At the ideal instance both programs compute one function of the nine arguments, `Cert.Gcn.network`:
  * a projection region ends with its array holding, entry by entry, the sum over the contraction axis of its two
    operands' products — the host's matrix product (narrowing the operands to bf16 is the identity on the extended
    reals; ten row blocks of 5000 rows fill the 50000 rows);
  * a layer region ends with its array holding max ((agg + xw * w) + b) 0 with the weights read down a column
    block and the bias along a row block — the host's layer with the weights and the bias repeated to the full shape;
  * every host operation between the regions is the reference's own operation on the same operands, and the
    reference's second computation of the degrees is its first one again.
  No algebraic law is needed: the two sides are the same operations in the same order, so the precondition is not used.

  The three frames are the generated ones (the reference's is its generated run with the result dropped), and the
  idealization rewrote nothing.
-/
import proofs.«120330_j55602646614062_1_alg».proof.Defs
import proofs.«120330_j55602646614062_1_alg».proof.Proof.Gen.Kernel
import proofs.«120330_j55602646614062_1_alg».proof.Proof.Gen.Kernel.Frame
import proofs.«120330_j55602646614062_1_alg».proof.Proof.Gen.KernelIdeal
import proofs.«120330_j55602646614062_1_alg».proof.Proof.Gen.KernelIdeal.Frame
import proofs.«120330_j55602646614062_1_alg».proof.Proof.Gen.ReferenceIdeal
import proofs.«120330_j55602646614062_1_alg».proof.Proof.Gen.Pre_finite_inputs
import proofs.«120330_j55602646614062_1_alg».proof.Proof.Gen.ReferenceIdeal.Run
import proofs.«120330_j55602646614062_1_alg».proof.Proof.KernelRun
import proofs.«120330_j55602646614062_1_alg».proof.Proof.BoundaryB
import proofs.«120330_j55602646614062_1_alg».proof.Proof.RefIsNetwork
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the network of the arguments in their result buffer. -/
theorem algebraic : Cert.algebraic_KernelIdeal_ReferenceIdeal := by
  intro m ρ m' ρ' _ hagree
  refine ⟨fun c => Cert.Gcn.network (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Whole.at8_v65 m ρ c), (h c).2⟩)
      (Cert.KernelIdeal.Whole.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8⟩ := hagree c
    rw [Cert.ReferenceIdeal.RefValue.res_eq, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
